-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S128x256 : Shape := ⟨2, ![128, 256]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : FVec F S50000x1 .f32) (main_arg2 : FVec F S128x256 .f32) (main_arg3 : IVec S600000 32) (main_arg4 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S50000x128 : Shape := ⟨2, ![50000, 128]⟩
abbrev S50000x1 : Shape := ⟨2, ![50000, 1]⟩
abbrev S128x256 : Shape := ⟨2, ![128, 256]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S256x128 : Shape := ⟨2, ![256, 128]⟩
abbrev S2000x128 : Shape := ⟨2, ![2000, 128]⟩
abbrev S2000x1 : Shape := ⟨2, ![2000, 1]⟩
abbrev S128x128 : Shape := ⟨2, ![128, 128]⟩
abbrev S2000 : Shape := ⟨1, ![2000]⟩

abbrev nBuf : Space → Nat
  | .hbm => 32
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S128x256, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .f32⟩
  | .hbm, ⟨15, _⟩ => ⟨S50000x128, .f32⟩
  | .hbm, ⟨16, _⟩ => ⟨S600000x1, .i32⟩
  | .hbm, ⟨17, _⟩ => ⟨S50000x128, .f32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S50000, .f32⟩
  | .hbm, ⟨22, _⟩ => ⟨S600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S256x128, .f32⟩
  | .hbm, ⟨31, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S2000x1, .f32⟩
  | .local _ .vmem, ⟨6, _⟩ => ⟨S2000x1, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x256_S256x128_1_0 : S128x256.Transposes [1, 0] S256x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S256x128_o0_0_S128x128 : S256x128.Slices ![0, 0] S128x128
  bitsLt_bf16_f32 : FTy.bits .bf16 < FTy.bits .f32
  slices_S256x128_o128_0_S128x128 : S256x128.Slices ![128, 0] S128x128
  reduces_S2000x128_S2000 : S2000x128.Reduces [1] S2000
  shapeCasts_S2000_S2000x1 : S2000.ShapeCasts S2000x1
  broadcasts_S2000x1_S2000x128 : S2000x1.Broadcasts S2000x128
  inb_S2000x1_S2000x1_0_0 : ∀ a, (![0, 0] : Fin 2 → Nat) a + S2000x1.size a ≤ S2000x1.size a
  h_S2000x1 : 0 < S2000x1.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S128x256 : Shape := ⟨2, ![128, 256]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x256 : Shape := ⟨2, ![50000, 256]⟩
abbrev S256x128 : Shape := ⟨2, ![256, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S128x256, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .f32⟩
  | .hbm, ⟨15, _⟩ => ⟨S50000x128, .f32⟩
  | .hbm, ⟨16, _⟩ => ⟨S600000x1, .i32⟩
  | .hbm, ⟨17, _⟩ => ⟨S50000x128, .f32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S50000, .f32⟩
  | .hbm, ⟨22, _⟩ => ⟨S600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S256x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000, .f32⟩
  | .hbm, ⟨36, _⟩ => ⟨S50000x1, .f32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  One layer of mean-aggregating message passing on a graph, as a function of arrays over the extended reals.

  A node `n` carries a feature row `h n` of width 128 and a second row `c n` of the same width (the mean of its
  in-neighbours' rows; here any array). The layer applies one linear map to the concatenated row `(h n, c n)` of width
  256 — its matrix given transposed, `wt : [256, 128]` —, divides the resulting row by its Euclidean norm floored at a
  small ε, clips it below at zero, and scales it by the node's own factor `s n`.

  * `lin`: the linear map, written as the rows' two halves met separately: Σₖ h(n,k)·wt(k,j) + Σₖ c(n,k)·wt(128+k,j);
  * `post`: what becomes of one row of linear outputs — normalise, clip, scale;
  * `layer`: the whole array, index by index; `layer_rows`: it acts node by node, so on a block of nodes it is the
    layer of the whole graph read at the block's nodes;
  * `sum_halves`: a sum of 256 terms is the sum of the first 128 plus the sum of the last 128 — only commutativity and
    associativity of addition, so it holds on the extended reals with no finiteness assumed. It is what joins one product
    with the concatenated row to the two products with its halves.
-/
import Idealize.ShloMosaic.Lib.ValueIdx
import Idealize.ShloMosaic.PureOps.Ideal
import Idealize.ShloMosaic.PureOps.Ideal.Laws

noncomputable section

open scoped BigOperators

namespace Cert.SageLayer

open Idealize.ShloMosaic Idealize.ShloMosaic.ValueIdx

/-- The linear map at node `n`, output feature `j`: row `n` of `h` against rows 0…127 of the transposed weight, plus row `n`
    of `c` against its rows 128…255. -/
def lin {N : ℕ} (h c : (⟨2, ![N, 128]⟩ : Shape).Idx → EReal) (wt : (⟨2, ![256, 128]⟩ : Shape).Idx → EReal)
    (n : Fin N) (j : Fin 128) : EReal :=
  (∑ k : Fin 128, h (ix2 n k) * wt (ix2 (⟨k.val, by omega⟩ : Fin 256) j))
    + ∑ k : Fin 128, c (ix2 n k) * wt (ix2 (⟨128 + k.val, by omega⟩ : Fin 256) j)

/-- One output feature from a node's row `b` of linear outputs and its factor `s`: `b j` over the row's Euclidean norm
    (floored at ε = the float 1e-12), clipped below at zero, times `s`. -/
def post (b : Fin 128 → EReal) (s : EReal) (j : Fin 128) : EReal :=
  max (Ideal.div (b j) (max (Ideal.sqrt (∑ k : Fin 128, b k * b k)) (Ideal.ofBits .f32 0x2B8CBCCC#32)))
      (Ideal.ofBits .f32 0x00000000#32) * s

/-- The layer's output array: at node `n`, feature `j`, `post` of the node's row of `lin` and of its factor. -/
def layer {N : ℕ} (h c : (⟨2, ![N, 128]⟩ : Shape).Idx → EReal) (wt : (⟨2, ![256, 128]⟩ : Shape).Idx → EReal)
    (s : (⟨2, ![N, 1]⟩ : Shape).Idx → EReal) : (⟨2, ![N, 128]⟩ : Shape).Idx → EReal :=
  fun i => post (fun j => lin h c wt (i 0) j) (s (ix2 (i 0) (0 : Fin 1))) (i 1)

/-- The layer read at an index given by its coordinates. -/
theorem layer_ix2 {N : ℕ} (h c : (⟨2, ![N, 128]⟩ : Shape).Idx → EReal) (wt : (⟨2, ![256, 128]⟩ : Shape).Idx → EReal)
    (s : (⟨2, ![N, 1]⟩ : Shape).Idx → EReal) (n : Fin N) (j : Fin 128) :
    layer h c wt s (ix2 n j) = post (fun j => lin h c wt n j) (s (ix2 n (0 : Fin 1))) j := rfl

/-- The layer of equal arrays is the same array. -/
theorem layer_congr {N : ℕ} {h h' c c' : (⟨2, ![N, 128]⟩ : Shape).Idx → EReal} {wt wt' : (⟨2, ![256, 128]⟩ : Shape).Idx → EReal}
    {s s' : (⟨2, ![N, 1]⟩ : Shape).Idx → EReal} (eh : h = h') (ec : c = c') (ew : wt = wt') (es : s = s') :
    layer h c wt s = layer h' c' wt' s' := by
  subst eh ec ew es
  rfl

/-- THE LAYER ACTS NODE BY NODE: if a family of `M` nodes carries, node `p` of the family, the rows and the factor of node
    `nd p` of a larger graph, then the layer on the family is the layer on the graph read at those nodes (with the one
    weight). An output row depends on its own node's rows and factor only. -/
theorem layer_rows {N M : ℕ} (h c : (⟨2, ![N, 128]⟩ : Shape).Idx → EReal) (wt : (⟨2, ![256, 128]⟩ : Shape).Idx → EReal)
    (s : (⟨2, ![N, 1]⟩ : Shape).Idx → EReal) (x0 x1 : (⟨2, ![M, 128]⟩ : Shape).Idx → EReal)
    (x3 : (⟨2, ![M, 1]⟩ : Shape).Idx → EReal) (nd : Fin M → Fin N)
    (h0 : ∀ p k, x0 (ix2 p k) = h (ix2 (nd p) k)) (h1 : ∀ p k, x1 (ix2 p k) = c (ix2 (nd p) k))
    (h3 : ∀ p, x3 (ix2 p (0 : Fin 1)) = s (ix2 (nd p) (0 : Fin 1))) (p : Fin M) (q : Fin 128) :
    layer x0 x1 wt x3 (ix2 p q) = layer h c wt s (ix2 (nd p) q) := by
  simp only [layer_ix2, lin, h0, h1, h3]

/-- A sum of 256 terms is the sum of the first 128 plus the sum of the last 128. -/
theorem sum_halves {M : Type*} [AddCommMonoid M] (f : Fin 256 → M) :
    ∑ k : Fin 256, f k = (∑ k : Fin 128, f ⟨k.val, by omega⟩) + ∑ k : Fin 128, f ⟨128 + k.val, by omega⟩ :=
  Fin.sum_univ_add (a := 128) (b := 128) f

end Cert.SageLayer

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.Body.lean ====
/-
  What the kernel body stores, read at one index of its block.

  The body holds a block of 2000 nodes: their rows `x0` of `h`, their rows `x1` of `c`, the whole transposed weight `x2`
  and their factors `x3`. It multiplies the rows of `h` with the top half of the weight and the rows of `c` with the
  bottom half (two matrix products into zero accumulators, the operands' change of float format the identity on the
  extended reals), adds the two, and then normalises, clips and scales each row. Read at node `p` of the block and
  feature `q` that is `post` of the node's row of `lin` — the layer itself, on the block.
-/
import proofs.«165460_j67645734912963_2_alg».proof.Proof.Gen.KernelIdeal.Skeleton
import proofs.«165460_j67645734912963_2_alg».proof.Proof.LibBlock
import proofs.«165460_j67645734912963_2_alg».proof.Proof.LibColumn
import proofs.«165460_j67645734912963_2_alg».proof.Proof.LibRowSum
import proofs.«165460_j67645734912963_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SageLayer.Body

open Cert.KernelIdeal Cert.KernelIdeal.Gen Idealize.ShloMosaic Idealize.ShloMosaic.ValueIdx

/-- The top half of the transposed weight, cut out of it: entry `(k, j)` is the weight's `(k, j)`. -/
theorem top_apply (x2 : FVec Ideal S256x128 .f32) (k j : Fin 128) :
    extractStridedSlice S128x128 ![0, 0] x2 slices_S256x128_o0_0_S128x128 (ix2 k j)
      = x2 (ix2 (⟨k.val, by omega⟩ : Fin 256) j) :=
  extractStridedSlice_apply _ x2 _ (ix2 k j) (ix2 (⟨k.val, by omega⟩ : Fin 256) j) fun a => by
    match a with
    | ⟨0, _⟩ => show k.val = 0 + k.val; omega
    | ⟨1, _⟩ => show j.val = 0 + j.val; omega

/-- The bottom half: entry `(k, j)` is the weight's `(128 + k, j)`. -/
theorem bottom_apply (x2 : FVec Ideal S256x128 .f32) (k j : Fin 128) :
    extractStridedSlice S128x128 ![128, 0] x2 slices_S256x128_o128_0_S128x128 (ix2 k j)
      = x2 (ix2 (⟨128 + k.val, by omega⟩ : Fin 256) j) :=
  extractStridedSlice_apply _ x2 _ (ix2 k j) (ix2 (⟨128 + k.val, by omega⟩ : Fin 256) j) fun a => by
    match a with
    | ⟨0, _⟩ => show 128 + k.val = 128 + k.val; rfl
    | ⟨1, _⟩ => show j.val = 0 + j.val; omega

/-- The sum of the body's two matrix products, at node `p` and feature `j`, is `lin` on the block. -/
theorem products_apply (x0 x1 : FVec Ideal S2000x128 .f32) (x2 : FVec Ideal S256x128 .f32) (p : Fin 2000) (j : Fin 128) :
    addf
      (matmul dot_S2000x128_S128x128_S2000x128_1_0_0_1_n_n none (truncf .bf16 x0 bitsLt_bf16_f32)
        (truncf .bf16 (extractStridedSlice S128x128 ![0, 0] (shapeCast S256x128 x2 shapeCasts_S256x128_S256x128) slices_S256x128_o0_0_S128x128) bitsLt_bf16_f32)
        (constant (F := Ideal) S2000x128 .f32 0x00000000#32))
      (matmul dot_S2000x128_S128x128_S2000x128_1_0_0_1_n_n none (truncf .bf16 (shapeCast S2000x128 x1 shapeCasts_S2000x128_S2000x128) bitsLt_bf16_f32)
        (truncf .bf16 (extractStridedSlice S128x128 ![128, 0] (shapeCast S256x128 x2 shapeCasts_S256x128_S256x128) slices_S256x128_o128_0_S128x128) bitsLt_bf16_f32)
        (constant (F := Ideal) S2000x128 .f32 0x00000000#32)) (ix2 p j)
      = lin x0 x1 x2 p j := by
  rw [shapeCast_self, shapeCast_self]
  refine (addf_apply _ _ _).trans ?_
  unfold lin
  refine congrArg₂ (· + ·) ?_ ?_
  · refine (Cert.LibBlock.matmul_zero_ix2 dot_S2000x128_S128x128_S2000x128_1_0_0_1_n_n rfl rfl rfl rfl rfl rfl none _ _ p j).trans ?_
    exact Finset.sum_congr rfl fun k _ => congrArg₂ (· * ·) rfl (top_apply x2 k j)
  · refine (Cert.LibBlock.matmul_zero_ix2 dot_S2000x128_S128x128_S2000x128_1_0_0_1_n_n rfl rfl rfl rfl rfl rfl none _ _ p j).trans ?_
    exact Finset.sum_congr rfl fun k _ => congrArg₂ (· * ·) rfl (bottom_apply x2 k j)

/-- THE BODY'S STORE at node `p` of the block and feature `q`: the node's row of `lin`, normalised by its Euclidean
    norm floored at ε, clipped below at zero and scaled by the node's factor — `post`. The row's sum of squares is the lane
    sum of the squared products; the column it is kept in and the spreading of that column (and of the factors' column)
    back over the 128 lanes only move entries. -/
theorem payload_apply (x0 x1 : Vec Ideal S2000x128 .f32) (x2 : Vec Ideal S256x128 .f32) (x3 : Vec Ideal S2000x1 .f32)
    (p : Fin 2000) (q : Fin 128) :
    k0_pay1 x0 x1 x2 x3 (ix2 p q) = post (fun j => lin x0 x1 x2 p j) (x3 (ix2 p (0 : Fin 1))) q := by
  unfold k0_pay1 post
  refine (mulf_apply _ _ _).trans ?_
  refine congrArg₂ (· * ·) ?_ (Cert.LibColumn.broadcastTo_a1_ab_apply x3 _ p q)
  refine (maximumf_apply _ _ _).trans ?_
  refine congrArg₂ max ?_ rfl
  refine (divf_apply _ _ _).trans ?_
  refine congrArg₂ Ideal.div (products_apply x0 x1 x2 p q) ?_
  refine (Cert.LibColumn.broadcastTo_a1_ab_apply _ _ p q).trans ?_
  refine (maximumf_apply _ _ _).trans ?_
  refine congrArg₂ max ?_ rfl
  refine congrArg Ideal.sqrt ?_
  refine (Cert.LibColumn.shapeCast_a_a1_apply _ _ p 0).trans ?_
  refine (Cert.LibRowSum.multiReduction_add_lanes_apply _ _ _ _ _ p).trans ?_
  exact Finset.sum_congr rfl fun k _ =>
    (mulf_apply _ _ _).trans (congrArg₂ (· * ·) (products_apply x0 x1 x2 p k) (products_apply x0 x1 x2 p k))

end Cert.SageLayer.Body

end
-- ==== Proof.KernelValue.lean ====
/-
  The kernel's result array is the layer of the arrays its region finds.

  The grid has 25 points; point `t` holds nodes `2000 t … 2000 t + 1999`: their rows of `h`, their rows of the neighbour
  mean, their factors, and — the same at every point — the whole transposed weight. What the body stores at node `p` of
  the block is `post` of that node's row of `lin` (Body.lean), and the layer acts node by node (`layer_rows`), so point `t`
  writes back rows `2000 t …` of the layer of the whole arrays. The 25 blocks tile the 50000 nodes: node `r` lies in the
  block of point `r / 2000`. So after the run the result array is the layer, everywhere.
-/
import proofs.«165460_j67645734912963_2_alg».proof.Proof.Gen.KernelIdeal.Value
import proofs.«165460_j67645734912963_2_alg».proof.Proof.Body
import proofs.«165460_j67645734912963_2_alg».proof.Proof.LibBlock
import proofs.«165460_j67645734912963_2_alg».proof.Proof.Spec
import Idealize.ShloMosaic.Lib.Pipeline.Value
import Idealize.ShloMosaic.Lib.ValueIdx

noncomputable section

namespace Cert.SageLayer.Kernel

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 25 grid points: the four windows cut along the nodes sit at block `t` on the node
    axis and block 0 on the feature axis; the weight's window sits at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Node `p` of grid point `t`'s block is node `2000 t + p` of the graph. -/
def node (t : Fin cfg0.N) (p : Fin 2000) : Fin 50000 :=
  ⟨2000 * t.val + p.val, by have ht : t.val < 25 := lt_of_lt_of_eq t.isLt N_0; omega⟩

/-- Point `t`'s block of `h`: row `p` is row `node t p` of the array. -/
theorem rows_h (c : Dev nD) (t : Fin cfg0.N) (p : Fin 2000) (k : Fin 128) :
    (iblk m c 0 t : Vec Ideal S2000x128 .f32) (ix2 p k) = (V m c main_arg0 : S50000x128.Idx → EReal) (ix2 (node t p) k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- Point `t`'s block of the neighbour mean: row `p` is row `node t p` of the array. -/
theorem rows_c (c : Dev nD) (t : Fin cfg0.N) (p : Fin 2000) (k : Fin 128) :
    (iblk m c 1 t : Vec Ideal S2000x128 .f32) (ix2 p k) = (V m c main_v18 : S50000x128.Idx → EReal) (ix2 (node t p) k) := by
  obtain ⟨-, -, e0, e1, -⟩ := idx_facts t
  unfold iblk
  rw [View.read_apply]
  show V m c main_v18 _ = V m c main_v18 _
  refine congrArg (V m c main_v18) (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- Point `t`'s block of the factors: entry `p` is entry `node t p` of the column. -/
theorem rows_s (c : Dev nD) (t : Fin cfg0.N) (p : Fin 2000) :
    (iblk m c 3 t : Vec Ideal S2000x1 .f32) (ix2 p (0 : Fin 1))
      = (V m c main_arg1 : S50000x1.Idx → EReal) (ix2 (node t p) (0 : Fin 1)) := by
  obtain ⟨-, -, -, -, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_3.index t (0 : Fin 2) * 2000 + 1 * p.val = 2000 * t.val + p.val; rw [e0]; omega
  | ⟨1, _⟩ => show win0_3.index t (1 : Fin 2) * 1 + 1 * 0 = 0; rw [e1]

/-- Every point's block of the transposed weight is the whole weight. -/
theorem weight_whole (c : Dev nD) (t : Fin cfg0.N) :
    (iblk m c 2 t : Vec Ideal S256x128 .f32) = (V m c main_v19 : S256x128.Idx → EReal) := by
  obtain ⟨-, -, -, -, e0, e1, -⟩ := idx_facts t
  funext y
  unfold iblk
  rw [View.read_apply]
  show V m c main_v19 _ = V m c main_v19 y
  refine congrArg (V m c main_v19) (funext fun a => Fin.ext ?_)
  match a with
  | ⟨0, _⟩ => show win0_2.index t (0 : Fin 2) * 256 + 1 * (y 0).val = (y 0).val; rw [e0]; omega
  | ⟨1, _⟩ => show win0_2.index t (1 : Fin 2) * 128 + 1 * (y 1).val = (y 1).val; rw [e1]; omega

/-- What the body stores at point `t`, entry by entry: the layer of the whole arrays at the block's nodes. -/
theorem payload_block (c : Dev nD) (t : Fin cfg0.N) :
    (k0_pay1 (iblk m c 0 t) (iblk m c 1 t) (iblk m c 2 t) (iblk m c 3 t) : Vec Ideal S2000x128 .f32)
      = fun y : S2000x128.Idx =>
          layer (V m c main_arg0) (V m c main_v18) (V m c main_v19) (V m c main_arg1) (ix2 (node t (y 0)) (y 1)) := by
  funext y
  obtain ⟨p, q, rfl⟩ : ∃ (p : Fin 2000) (q : Fin 128), y = ix2 p q := ⟨y 0, y 1, eq_ix2 y⟩
  refine (Body.payload_apply (iblk m c 0 t) (iblk m c 1 t) (iblk m c 2 t) (iblk m c 3 t) p q).trans ?_
  rw [weight_whole m c t]
  exact layer_rows (V m c main_arg0) (V m c main_v18) (V m c main_v19) (V m c main_arg1)
    (iblk m c 0 t) (iblk m c 1 t) (iblk m c 3 t) (node t) (rows_h m c t) (rows_c m c t) (rows_s m c t) p q

/-- WHAT POINT `t` WRITES BACK is block `t` of the layer of the arrays the region finds. -/
theorem flushed_eq (c : Dev nD) (t : Fin cfg0.N) :
    (dats m 0 c).flushed 4 t = ((cfg0.win 4).blk t).view.read (Elt Ideal)
      (layer (V m c main_arg0) (V m c main_v18) (V m c main_v19) (V m c main_arg1)) := by
  rw [flushed4]
  unfold out0_4
  rw [View.canon_unit_zero Cert.LibBlock.hz]
  simp only [View.ld_unit_zero (S := S2000x128) Cert.LibBlock.hz, View.ld_unit_zero (S := S256x128) Cert.LibBlock.hz,
    View.ld_unit_zero (S := S2000x1) Cert.LibBlock.hz]
  rw [payload_block m c t]
  obtain ⟨-, -, -, -, -, -, -, -, e0, e1⟩ := idx_facts t
  funext j
  show layer (V m c main_arg0) (V m c main_v18) (V m c main_v19) (V m c main_arg1) (ix2 (node t (j 0)) (j 1))
    = layer (V m c main_arg0) (V m c main_v18) (V m c main_v19) (V m c main_arg1) (((cfg0.win 4).blk t).view.emb j)
  refine congrArg _ (funext fun a => Fin.ext ?_)
  match a with
  | ⟨0, _⟩ => show 2000 * t.val + (j 0).val = win0_4.index t (0 : Fin 2) * 2000 + 1 * (j 0).val; rw [e0]; omega
  | ⟨1, _⟩ => show (j 1).val = win0_4.index t (1 : Fin 2) * 128 + 1 * (j 1).val; rw [e1]; omega

/-- An index of the result array is in point `t`'s block iff each coordinate is in the block's range on its axis. -/
theorem mem_blk (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v20).slice (win0_4.rect t)).set ↔ _
  rw [View.set_slice_whole, Rect.mem_set_unit]
  exact Iff.rfl

/-- The 25 blocks tile the array: node `r` lies in the block of point `r / 2000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, -, -, -, -, -, -, e0, e1⟩ := idx_facts t
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    rw [e0, ht]; omega
  | ⟨1, _⟩ =>
    show win0_4.index t (1 : Fin 2) * 128 ≤ (i 1).val ∧ (i 1).val < win0_4.index t (1 : Fin 2) * 128 + 128
    rw [e1]; omega

/-- THE RESULT ARRAY after the run is the layer of the arrays the region finds. -/
theorem final (c : Dev nD) :
    (dats m 0 c).arrAt 4 cfg0.N = layer (V m c main_arg0) (V m c main_v18) (V m c main_v19) (V m c main_arg1) :=
  (dats m 0 c).arrAt_eq_of_cover 4 _ (fun t _ => flushed_eq m c t) cover

end Cert.SageLayer.Kernel

end
-- ==== Proof.RefLayer.lean ====
/-
  The reference computes the layer.

  The reference concatenates each node's row of `h` with its row of the neighbour mean `c` into one row of width 256 and
  multiplies that with the transposed weight in ONE product; then it normalises, clips and scales as the layer does.
  A product with a concatenated row is the sum of the products with its two halves (`sum_halves`): entries 0…127 of the
  concatenation are the row of `h`, entries 128…255 the row of `c`. So the one product is `lin`, and the reference's
  result array is `layer` of `h`, of its own neighbour mean, of its own transposed weight and of the nodes' factors.
-/
import proofs.«165460_j67645734912963_2_alg».proof.Proof.Gen.ReferenceIdeal.Read
import proofs.«165460_j67645734912963_2_alg».proof.Proof.Spec
import Idealize.ShloMosaic.Lib.Pipeline.Value
import Idealize.ShloMosaic.Lib.ValueIdx
import Idealize.ShloMosaic.PureOps.Ideal.Laws

noncomputable section

open scoped BigOperators

namespace Cert.SageLayer.Ref

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S50000x1, .f32⟩ : BufTy).Contents (Elt Ideal))
  (x2 : (⟨S128x256, .f32⟩ : BufTy).Contents (Elt Ideal)) (x3 x4 : (⟨S600000, .i32⟩ : BufTy).Contents (Elt Ideal))

/-- Entry `k < 128` of node `n`'s concatenated row is entry `k` of its row of `h`. -/
theorem concat_left (n : Fin 50000) (j k : Fin 128) :
    val_main_v19 (F := Ideal) x0 x3 x4 (lidx_main_v21 (ix2 n j) ⟨k.val, by omega⟩) = x0 (ix2 n k) := by
  unfold val_main_v19
  refine concatenate_pair_apply_left (t := S50000x256) (s₁ := S50000x128) (s₂ := S50000x128) 1 x0 _ _ (lidx_main_v21 (ix2 n j) ⟨k.val, by omega⟩) rfl (ix2 n k) (fun b => ?_)
  match b with
  | ⟨0, _⟩ => rfl
  | ⟨1, _⟩ => rfl

/-- Entry `128 + k` of node `n`'s concatenated row is entry `k` of its row of the neighbour mean. -/
theorem concat_right (n : Fin 50000) (j k : Fin 128) :
    val_main_v19 (F := Ideal) x0 x3 x4 (lidx_main_v21 (ix2 n j) ⟨128 + k.val, by omega⟩)
      = val_main_v18 (F := Ideal) x0 x3 x4 (ix2 n k) := by
  unfold val_main_v19
  refine concatenate_pair_apply_right (t := S50000x256) (s₁ := S50000x128) (s₂ := S50000x128) 1 x0 _ _ (lidx_main_v21 (ix2 n j) ⟨128 + k.val, by omega⟩) rfl rfl (ix2 n k) (fun b hb => ?_) ?_
  · match b with
    | ⟨0, _⟩ => rfl
    | ⟨1, _⟩ => exact absurd rfl hb
  · show k.val + 128 = 128 + k.val
    omega

/-- The reference's one product of the concatenated rows with the transposed weight is `lin`. -/
theorem product_apply (n : Fin 50000) (j : Fin 128) :
    val_main_v21 (F := Ideal) x0 x2 x3 x4 (ix2 n j)
      = lin x0 (val_main_v18 (F := Ideal) x0 x3 x4) (val_main_v20 (F := Ideal) x2) n j := by
  refine (val_main_v21_apply x0 x2 x3 x4 (ix2 n j)).trans ((sum_halves _).trans ?_)
  unfold lin
  refine congrArg₂ (· + ·) (Finset.sum_congr rfl fun k _ => ?_) (Finset.sum_congr rfl fun k _ => ?_)
  · refine congrArg₂ (· * ·) (concat_left x0 x3 x4 n j k) (congrArg _ (funext fun a => ?_))
    match a with
    | ⟨0, _⟩ => rfl
    | ⟨1, _⟩ => rfl
  · refine congrArg₂ (· * ·) (concat_right x0 x3 x4 n j k) (congrArg _ (funext fun a => ?_))
    match a with
    | ⟨0, _⟩ => rfl
    | ⟨1, _⟩ => rfl

/-- THE REFERENCE'S RESULT is the layer of `h`, the reference's neighbour mean, its transposed weight and the factors:
    after the product every stage acts on one entry or one row, exactly as `post` does (the host's row sum starts from
    the zero word, which adds nothing). -/
theorem result_eq :
    val_main_v32 (F := Ideal) x0 x1 x2 x3 x4
      = layer x0 (val_main_v18 (F := Ideal) x0 x3 x4) (val_main_v20 (F := Ideal) x2) x1 := by
  funext i
  obtain ⟨n, j, rfl⟩ : ∃ (n : Fin 50000) (j : Fin 128), i = ix2 n j := ⟨i 0, i 1, eq_ix2 i⟩
  rw [layer_ix2]
  unfold post
  refine (val_main_v32_apply x0 x1 x2 x3 x4 _).trans ?_
  refine congrArg₂ (· * ·) ?_ ?_
  · refine (val_main_v30_apply x0 x2 x3 x4 _).trans ?_
    refine congrArg₂ max ?_ ((val_main_call0_v0_apply _).trans (val_main_call0_cst_apply _))
    refine (val_main_v29_apply x0 x2 x3 x4 _).trans ?_
    refine congrArg₂ Ideal.div (product_apply x0 x2 x3 x4 n j) ?_
    refine (val_main_v28_apply x0 x2 x3 x4 _).trans ?_
    refine (val_main_v27_apply x0 x2 x3 x4 _).trans ?_
    refine congrArg₂ max ?_ ((val_main_v26_apply _).trans (val_main_cst_5_apply _))
    refine (val_main_v25_apply x0 x2 x3 x4 _).trans ?_
    refine (Ideal.hostUnary_sqrt_def _).trans (congrArg Ideal.sqrt ?_)
    refine (val_main_v24_apply x0 x2 x3 x4 _).trans ?_
    refine (val_main_v23_apply x0 x2 x3 x4 _).trans ?_
    refine (congrArg (· + _) ((val_main_cst_4_apply _).trans Ideal.ofBits_zero_f32)).trans ((zero_add _).trans ?_)
    refine Finset.sum_congr rfl fun k _ => ?_
    have e : idx_main_v23 (idx_main_v24 (idx_main_v28 (ix2 n j))) k = ix2 n k := funext fun a => by
      match a with
      | ⟨0, _⟩ => rfl
      | ⟨1, _⟩ => rfl
    rw [e]
    exact (val_main_v22_apply x0 x2 x3 x4 _).trans
      (congrArg₂ (· * ·) (product_apply x0 x2 x3 x4 n k) (product_apply x0 x2 x3 x4 n k))
  · refine (val_main_v31_apply x1 _).trans (congrArg x1 (funext fun a => ?_))
    match a with
    | ⟨0, _⟩ => rfl
    | ⟨1, _⟩ => rfl

end Cert.SageLayer.Ref

end
-- ==== Proof.HostShared.lean ====
/-
  The arrays the kernel's region finds are the reference's own intermediate arrays.

  Before its region the kernel's program computes, on the host, the neighbour mean — gather the rows of `h` at the edges'
  sources, add them up at the edges' targets, divide by the in-degree floored at one — and the transposed weight. The
  reference computes both by the very same operations with the same constants. So nothing of that computation is opened:
  the two terms are one term, operation for operation.
-/
import proofs.«165460_j67645734912963_2_alg».proof.Proof.Gen.KernelIdeal.Frame
import proofs.«165460_j67645734912963_2_alg».proof.Proof.Gen.ReferenceIdeal.Read
import Idealize.ShloMosaic.Lib.StableHlo.Run

noncomputable section

namespace Cert.SageLayer.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The neighbour mean the region finds is the reference's neighbour mean of the same arguments. -/
theorem mean_eq (c : Dev nD) :
    (V m c main_v18 : S50000x128.Idx → EReal)
      = Cert.ReferenceIdeal.Read.val_main_v18 (F := Ideal) (m ((c : Thread nD τ).loc main_arg0))
          (m ((c : Thread nD τ).loc main_arg3)) (m ((c : Thread nD τ).loc main_arg4)) := by
  show StableHlo.after hostOps0 (fun b => m (c, b)) (Proc.devRef .tc main_v18) = _
  after_results_simp
  rfl

/-- The transposed weight the region finds is the reference's transposed weight of the same argument. -/
theorem weight_eq (c : Dev nD) :
    (V m c main_v19 : S256x128.Idx → EReal)
      = Cert.ReferenceIdeal.Read.val_main_v20 (F := Ideal) (m ((c : Thread nD τ).loc main_arg2)) := by
  dsimp only [V, hostOps0]
  after_results
  rfl

end Cert.SageLayer.Host

end
-- ==== Proof.lean ====
/-
  One graph layer with mean aggregation, computed two ways, equal on the extended reals.

  Both programs first form, on the host and by the same operations, each node's mean `c` of its in-neighbours' feature
  rows (gather at the edges' sources, add up at their targets, divide by the in-degree floored at one) and the transposed
  weight. The reference then concatenates each node's row of `h` with its row of `c` and multiplies the row of width 256
  with the transposed weight; the kernel, 2000 nodes at a time, multiplies the row of `h` with the weight's top half and
  the row of `c` with its bottom half and adds the two products. A sum of 256 terms is the sum of its first 128 plus the
  sum of its last 128, by commutativity and associativity of addition alone, so the two agree on every extended real,
  infinite ones included: no finiteness of the inputs is used. What follows — divide the row by its Euclidean norm
  floored at the float 1e-12, clip below at zero, scale by the node's factor — is the same chain in both, entry by
  entry and row by row, with the same constants.

  Spec.lean states the layer as one function of arrays (`layer`); Body.lean reads the kernel body's store at an index;
  KernelValue.lean puts the 25 blocks together into the result array; RefLayer.lean reads the reference's stages as the
  layer; HostShared.lean identifies the host arrays of the two programs. Here the kernel's run is read, and the five
  claims are assembled: the three frames are the generated runs, the idealized kernel is the kernel's own text read at
  the ideal values (no rewrite to justify), and the two results are one `layer` term.
-/
import proofs.«165460_j67645734912963_2_alg».proof.Defs
import proofs.«165460_j67645734912963_2_alg».proof.Proof.Gen.Kernel
import proofs.«165460_j67645734912963_2_alg».proof.Proof.Gen.Kernel.Frame
import proofs.«165460_j67645734912963_2_alg».proof.Proof.Gen.KernelIdeal
import proofs.«165460_j67645734912963_2_alg».proof.Proof.Gen.KernelIdeal.Frame
import proofs.«165460_j67645734912963_2_alg».proof.Proof.Gen.KernelIdeal.Value
import proofs.«165460_j67645734912963_2_alg».proof.Proof.Gen.ReferenceIdeal
import proofs.«165460_j67645734912963_2_alg».proof.Proof.Gen.ReferenceIdeal.Run
import proofs.«165460_j67645734912963_2_alg».proof.Proof.Gen.ReferenceIdeal.Read
import proofs.«165460_j67645734912963_2_alg».proof.Proof.Gen.Pre_finite_inputs
import proofs.«165460_j67645734912963_2_alg».proof.Proof.Spec
import proofs.«165460_j67645734912963_2_alg».proof.Proof.KernelValue
import proofs.«165460_j67645734912963_2_alg».proof.Proof.RefLayer
import proofs.«165460_j67645734912963_2_alg».proof.Proof.HostShared
import Idealize.ShloMosaic.Adequacy
import Idealize.ShloMosaic.Init

noncomputable section

namespace Cert.Proof

open Idealize.ShloMosaic Idealize.ShloMosaic.TcCoe Idealize.SL.Sem Cert.SageLayer

/-- The result both programs end with, from the kernel's arguments: the layer of `h`, of the neighbour mean of `h` along
    the edges, of the transposed weight and of the nodes' factors. -/
abbrev result (m : (ℓ : Loc Cert.KernelIdeal.nD Cert.KernelIdeal.τ Cert.KernelIdeal.sig) → Buf (Elt Ideal) ℓ)
    (c : Dev Cert.KernelIdeal.nD) : (⟨2, ![50000, 128]⟩ : Shape).Idx → EReal :=
  layer (N := 50000) (m ((c.tc : Thread Cert.KernelIdeal.nD Cert.KernelIdeal.τ).loc Cert.KernelIdeal.main_arg0))
    (Cert.ReferenceIdeal.Read.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)))
    (Cert.ReferenceIdeal.Read.val_main_v20 (F := Ideal)
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg1))

/-- The idealized kernel's run, read: the result array ends at `result`, the arguments unchanged. The region finds `h`
    and the factors as launched, and the neighbour mean and the transposed weight as the host operations left them. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v20) = result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run Cert.KernelIdeal.defs _ _).mono
    (fun r h c => ⟨(h c).1.trans ((Kernel.final m c).trans
        (layer_congr (Cert.KernelIdeal.Gen.V_main_arg0 m c) (Host.mean_eq m c) (Host.weight_eq m c)
          (Cert.KernelIdeal.Gen.V_main_arg1 m c))), (h c).2⟩)
    (Cert.KernelIdeal.Value.run_blocks m ρ)

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: there is no rewrite to justify. -/
theorem preserves : Cert.preserves_Kernel_KernelIdeal := trivial

/-- From memories that agree on the arguments both programs end at `result`: the kernel by its run read above, the
    reference because its last stage is the layer of its own neighbour mean and transposed weight (RefLayer.lean), which
    are functions of the arguments alone. -/
theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Ref.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
